-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x128 : Shape := ⟨3, ![32, 8192, 128]⟩
abbrev S32x128 : Shape := ⟨2, ![32, 128]⟩
abbrev S_ : Shape := ⟨0, ![]⟩

class Facts : Prop where
  bcast_S_S32x8192x128 : S_.BroadcastsInDim S32x8192x128 (![] : Fin 0 → Fin S32x8192x128.rank)
  reducesTo_S32x8192x128_S_d0_1_2 : S32x8192x128.ReducesTo [0, 1, 2] S_
  h_S_ : 0 < S_.numel
  bcast_S_S32x128 : S_.BroadcastsInDim S32x128 (![] : Fin 0 → Fin S32x128.rank)
  reducesTo_S32x128_S_d0_1 : S32x128.ReducesTo [0, 1] S_

variable [Facts]

def fn {F : FTy → Type} [FloatOps F] (main_arg0 : FVec F S32x8192x128 .f32) (main_arg1 : FVec F S32x128 .f32) : IVec S_ 1 :=
  let main_v0 : FVec F S32x8192x128 .f32 := Host.absf main_arg0
  let main_cst : FVec F S_ .f32 := constant S_ .f32 0x7F800000#32
  let main_v1 : FVec F S32x8192x128 .f32 := broadcastInDim S32x8192x128 ![] bcast_S_S32x8192x128 main_cst
  let main_v2 : IVec S32x8192x128 1 := cmpf .olt main_v0 main_v1
  let main_c : IVec S_ 1 := constantI S_ 1 1#1
  let main_v3 : IVec S_ 1 := (fun x v => Host.reduce IntOp.andi x v reducesTo_S32x8192x128_S_d0_1_2 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  main_v8
-- ==== Kernel.lean ====
abbrev S32x8192x128 : Shape := ⟨3, ![32, 8192, 128]⟩
abbrev S32x128 : Shape := ⟨2, ![32, 128]⟩
abbrev S32x1x128 : Shape := ⟨3, ![32, 1, 128]⟩
abbrev S_ : Shape := ⟨0, ![]⟩
abbrev S1x8192 : Shape := ⟨2, ![1, 8192]⟩
abbrev S32x1x1 : Shape := ⟨3, ![32, 1, 1]⟩
abbrev S2x8192x128 : Shape := ⟨3, ![2, 8192, 128]⟩
abbrev S2x1x128 : Shape := ⟨3, ![2, 1, 128]⟩
abbrev S2x1x1 : Shape := ⟨3, ![2, 1, 1]⟩
abbrev S1x8192x128 : Shape := ⟨3, ![1, 8192, 128]⟩
abbrev S8192x128 : Shape := ⟨2, ![8192, 128]⟩
abbrev S8192x256 : Shape := ⟨2, ![8192, 256]⟩
abbrev S256x256 : Shape := ⟨2, ![256, 256]⟩
abbrev S128x128 : Shape := ⟨2, ![128, 128]⟩
abbrev S1x256 : Shape := ⟨2, ![1, 256]⟩
abbrev S1x128 : Shape := ⟨2, ![1, 128]⟩
abbrev S1x1x128 : Shape := ⟨3, ![1, 1, 128]⟩
abbrev S128x1 : Shape := ⟨2, ![128, 1]⟩
abbrev S128 : Shape := ⟨1, ![128]⟩
abbrev S1 : Shape := ⟨1, ![1]⟩
abbrev S1x1 : Shape := ⟨2, ![1, 1]⟩
abbrev S1x1x1 : Shape := ⟨3, ![1, 1, 1]⟩
abbrev S32 : Shape := ⟨1, ![32]⟩

abbrev nBuf : Space → Nat
  | .hbm => 11
  | .vmem => 7
  | .smem => 0
  | _ => 0

abbrev bufTy : (tb : Table) → Fin (tcTables nBuf tb) → BufTy
  | .hbm, ⟨0, _⟩ => ⟨S32x8192x128, .f32⟩
  | .hbm, ⟨1, _⟩ => ⟨S32x128, .f32⟩
  | .hbm, ⟨2, _⟩ => ⟨S32x1x128, .f32⟩
  | .hbm, ⟨3, _⟩ => ⟨S_, .bf16⟩
  | .hbm, ⟨4, _⟩ => ⟨S1x8192, .bf16⟩
  | .hbm, ⟨5, _⟩ => ⟨S32x1x1, .f32⟩
  | .hbm, ⟨6, _⟩ => ⟨S32, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S2x8192x128, .f32⟩
  | .local _ .vmem, ⟨1, _⟩ => ⟨S2x8192x128, .f32⟩
  | .local _ .vmem, ⟨2, _⟩ => ⟨S2x1x128, .f32⟩
  | .local _ .vmem, ⟨3, _⟩ => ⟨S2x1x128, .f32⟩
  | .local _ .vmem, ⟨4, _⟩ => ⟨S1x8192, .bf16⟩
  | .local _ .vmem, ⟨5, _⟩ => ⟨S2x1x1, .f32⟩
  | .local _ .vmem, ⟨6, _⟩ => ⟨S2x1x1, .f32⟩
  | _, _ => ⟨S32x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x128_S32x1x128 : S32x128.ShapeCasts S32x1x128
  bcast_S_S1x8192 : S_.BroadcastsInDim S1x8192 (![] : Fin 0 → Fin S1x8192.rank)
  inb_S2x8192x128_S1x8192x128_0_0_0 : ∀ a, (![0, 0, 0] : Fin 3 → Nat) a + S1x8192x128.size a ≤ S2x8192x128.size a
  h_S1x8192x128 : 0 < S1x8192x128.numel
  shapeCasts_S1x8192x128_S8192x128 : S1x8192x128.ShapeCasts S8192x128
  bitsLt_bf16_f32 : FTy.bits .bf16 < FTy.bits .f32
  inb_S2x8192x128_S1x8192x128_1_0_0 : ∀ a, (![1, 0, 0] : Fin 3 → Nat) a + S1x8192x128.size a ≤ S2x8192x128.size a
  concatenates_S8192x128_S8192x128_S8192x256_d1 : Shape.Concatenates [S8192x128, S8192x128] S8192x256 1
  slices_S256x256_o0_0_S128x128 : S256x256.Slices ![0, 0] S128x128
  slices_S256x256_o128_128_S128x128 : S256x256.Slices ![128, 128] S128x128
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  slices_S1x256_o0_0_S1x128 : S1x256.Slices ![0, 0] S1x128
  slices_S1x256_o0_128_S1x128 : S1x256.Slices ![0, 128] S1x128
  inb_S2x1x128_S1x1x128_0_0_0 : ∀ a, (![0, 0, 0] : Fin 3 → Nat) a + S1x1x128.size a ≤ S2x1x128.size a
  h_S1x1x128 : 0 < S1x1x128.numel
  shapeCasts_S1x1x128_S1x128 : S1x1x128.ShapeCasts S1x128
  transposes_S1x128_p1_0_S128x1 : S1x128.Transposes [1, 0] S128x1
  broadcasts_S128x1_S128x128 : S128x1.Broadcasts S128x128
  broadcasts_S1x128_S128x128 : S1x128.Broadcasts S128x128
  reduces_S128x128_S128 : S128x128.Reduces [1] S128
  shapeCasts_S128_S128x1 : S128.ShapeCasts S128x1
  reduces_S128x1_S1 : S128x1.Reduces [0] S1
  shapeCasts_S1_S1x1 : S1.ShapeCasts S1x1
  inb_S2x1x1_S1x1x1_0_0_0 : ∀ a, (![0, 0, 0] : Fin 3 → Nat) a + S1x1x1.size a ≤ S2x1x1.size a
  h_S1x1x1 : 0 < S1x1x1.numel
  shapeCasts_S1x1x1_S1x1 : S1x1x1.ShapeCasts S1x1
  shapeCasts_S1x1_S1x1x1 : S1x1.ShapeCasts S1x1x1
  inb_S2x1x128_S1x1x128_1_0_0 : ∀ a, (![1, 0, 0] : Fin 3 → Nat) a + S1x1x128.size a ≤ S2x1x128.size a
  inb_S2x1x1_S1x1x1_1_0_0 : ∀ a, (![1, 0, 0] : Fin 3 → Nat) a + S1x1x1.size a ≤ S2x1x1.size a
  shapeCasts_S32x1x1_S32 : S32x1x1.ShapeCasts S32
  reducesTo_S32_S_d0 : S32.ReducesTo [0] S_
  h_S_ : 0 < S_.numel
  dot_S8192x256_S8192x256_S256x256_0_0_1_1_n_n_wf : DotDims.WF S8192x256 S8192x256 S256x256 [0] [0] [1] [1] [] []
  dot_S1x8192_S8192x256_S1x256_1_0_0_1_n_n_wf : DotDims.WF S1x8192 S8192x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x8192x128.size a ≤ S32x8192x128.size a
  hwx0_0 : ∀ i : grid0.Coords, EltTy.bits .f32 = 32 ∨ (Rect.block (s := S32x8192x128) S2x8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x128.size a ≤ S32x1x128.size a
  hwx0_1 : ∀ i : grid0.Coords, EltTy.bits .f32 = 32 ∨ (Rect.block (s := S32x1x128) S2x1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .bf16 = 32 ∨ (Rect.block (s := S1x8192) S1x8192.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x1.size a ≤ S32x1x1.size a
  hwx0_3 : ∀ i : grid0.Coords, EltTy.bits .f32 = 32 ∨ (Rect.block (s := S32x1x1) S2x1x1.size (cc0_transform_3 i) (hinb0_3 i)).WholeWords (EltTy.packing .f32)

variable [Facts₀]

def dot_S8192x256_S8192x256_S256x256_0_0_1_1_n_n : DotDims S8192x256 S8192x256 S256x256 where
  lhsContracting := [0]
  rhsContracting := [0]
  lhsNonContracting := [1]
  rhsNonContracting := [1]
  lhsBatch := []
  rhsBatch := []
  wf := dot_S8192x256_S8192x256_S256x256_0_0_1_1_n_n_wf
def dot_S1x8192_S8192x256_S1x256_1_0_0_1_n_n : DotDims S1x8192 S8192x256 S1x256 where
  lhsContracting := [1]
  rhsContracting := [0]
  lhsNonContracting := [0]
  rhsNonContracting := [1]
  lhsBatch := []
  rhsBatch := []
  wf := dot_S1x8192_S8192x256_S1x256_1_0_0_1_n_n_wf

abbrev win0_0 : Pipeline.Window sig grid0 :=
  Pipeline.Window.ofSpec (Memref.whole main_arg0) S2x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x8192x128 : Shape := ⟨3, ![32, 8192, 128]⟩
abbrev S32x128 : Shape := ⟨2, ![32, 128]⟩
abbrev S32x128x128 : Shape := ⟨3, ![32, 128, 128]⟩
abbrev S32x128x1 : Shape := ⟨3, ![32, 128, 1]⟩
abbrev S32x1x128 : Shape := ⟨3, ![32, 1, 128]⟩
abbrev S_ : Shape := ⟨0, ![]⟩
abbrev S32 : Shape := ⟨1, ![32]⟩

abbrev nBuf : Space → Nat
  | .hbm => 44
  | .vmem => 0
  | .smem => 0
  | _ => 0

abbrev bufTy : (tb : Table) → Fin (tcTables nBuf tb) → BufTy
  | .hbm, ⟨0, _⟩ => ⟨S32x8192x128, .f32⟩
  | .hbm, ⟨1, _⟩ => ⟨S32x128, .f32⟩
  | .hbm, ⟨2, _⟩ => ⟨S32x128x128, .f32⟩
  | .hbm, ⟨3, _⟩ => ⟨S32x128x1, .f32⟩
  | .hbm, ⟨4, _⟩ => ⟨S32x1x128, .f32⟩
  | .hbm, ⟨5, _⟩ => ⟨S32x128x128, .f32⟩
  | .hbm, ⟨6, _⟩ => ⟨S32x128x128, .f32⟩
  | .hbm, ⟨7, _⟩ => ⟨S32x128x128, .f32⟩
  | .hbm, ⟨8, _⟩ => ⟨S_, .f32⟩
  | .hbm, ⟨9, _⟩ => ⟨S32x128x128, .f32⟩
  | .hbm, ⟨10, _⟩ => ⟨S32x128x128, .f32⟩
  | .hbm, ⟨11, _⟩ => ⟨S_, .f32⟩
  | .hbm, ⟨12, _⟩ => ⟨S32x128, .f32⟩
  | .hbm, ⟨13, _⟩ => ⟨S32x128x1, .f32⟩
  | .hbm, ⟨14, _⟩ => ⟨S32x1x128, .f32⟩
  | .hbm, ⟨15, _⟩ => ⟨S32x128x128, .f32⟩
  | .hbm, ⟨16, _⟩ => ⟨S32x128x128, .f32⟩
  | .hbm, ⟨17, _⟩ => ⟨S32x128x128, .f32⟩
  | .hbm, ⟨18, _⟩ => ⟨S_, .f32⟩
  | .hbm, ⟨19, _⟩ => ⟨S32x128x128, .f32⟩
  | .hbm, ⟨20, _⟩ => ⟨S32x128x128, .f32⟩
  | .hbm, ⟨21, _⟩ => ⟨S32x128x128, .f32⟩
  | .hbm, ⟨22, _⟩ => ⟨S_, .f32⟩
  | .hbm, ⟨23, _⟩ => ⟨S32x128x128, .f32⟩
  | .hbm, ⟨24, _⟩ => ⟨S32x128x128, .f32⟩
  | .hbm, ⟨25, _⟩ => ⟨S32x128x128, .f32⟩
  | .hbm, ⟨26, _⟩ => ⟨S32x128x128, .f32⟩
  | .hbm, ⟨27, _⟩ => ⟨S_, .f32⟩
  | .hbm, ⟨28, _⟩ => ⟨S32x128x128, .f32⟩
  | .hbm, ⟨29, _⟩ => ⟨S32x128x128, .f32⟩
  | .hbm, ⟨30, _⟩ => ⟨S32x128x128, .f32⟩
  | .hbm, ⟨31, _⟩ => ⟨S_, .f32⟩
  | .hbm, ⟨32, _⟩ => ⟨S32x128x128, .f32⟩
  | .hbm, ⟨33, _⟩ => ⟨S32x128x128, .f32⟩
  | .hbm, ⟨34, _⟩ => ⟨S32x128x128, .f32⟩
  | .hbm, ⟨35, _⟩ => ⟨S_, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  bcast_S32x128_S32x128x1_0_1 : S32x128.BroadcastsInDim S32x128x1 (![0, 1] : Fin 2 → Fin S32x128x1.rank)
  bcast_S32x128_S32x1x128_0_2 : S32x128.BroadcastsInDim S32x1x128 (![0, 2] : Fin 2 → Fin S32x1x128.rank)
  bcast_S32x128x1_S32x128x128_0_1_2 : S32x128x1.BroadcastsInDim S32x128x128 (![0, 1, 2] : Fin 3 → Fin S32x128x128.rank)
  bcast_S32x1x128_S32x128x128_0_1_2 : S32x1x128.BroadcastsInDim S32x128x128 (![0, 1, 2] : Fin 3 → Fin S32x128x128.rank)
  bcast_S_S32x128x128 : S_.BroadcastsInDim S32x128x128 (![] : Fin 0 → Fin S32x128x128.rank)
  reducesTo_S32x8192x128_S32x128_d1 : S32x8192x128.ReducesTo [1] S32x128
  h_S_ : 0 < S_.numel
  reducesTo_S32x128x128_S32_d1_2 : S32x128x128.ReducesTo [1, 2] S32
  bcast_S_S32 : S_.BroadcastsInDim S32 (![] : Fin 0 → Fin S32.rank)
  reducesTo_S32_S_d0 : S32.ReducesTo [0] S_
  dot_S32x8192x128_S32x8192x128_S32x128x128_1_1_2_2_0_0_wf : DotDims.WF S32x8192x128 S32x8192x128 S32x128x128 [1] [1] [2] [2] [0] [0]

variable [Facts₀]

def dot_S32x8192x128_S32x8192x128_S32x128x128_1_1_2_2_0_0 : DotDims S32x8192x128 S32x8192x128 S32x128x128 where
  lhsContracting := [1]
  rhsContracting := [1]
  lhsNonContracting := [2]
  rhsNonContracting := [2]
  lhsBatch := [0]
  rhsBatch := [0]
  wf := dot_S32x8192x128_S32x8192x128_S32x128x128_1_1_2_2_0_0_wf

class Facts : Prop extends Facts₀ where

variable [Facts]
-- ==== Proof.GramLoss.lean ====
/-
  The polynomial-kernel feature-matching loss as ONE function of the two argument arrays, over the extended reals.

  For a batch entry b, with student features x[b] (8192 positions by 128 channels) and one teacher row t[b] (128 channels,
  the same at every position), the three channel-by-channel Gram matrices over the positions are
      student-student   G[p, q] = sum over s of x[b, s, p] * x[b, s, q],
      teacher-teacher   8192 * (t[b, p] * t[b, q])                      (8192 equal summands),
      student-teacher   (sum over s of x[b, s, p]) * t[b, q].
  The degree-2 polynomial kernel with offset 0 sends an entry g to (g + 0) * (g + 0). The loss of entry b is the sum over
  all 128 * 128 channel pairs of  k(G) + k(teacher-teacher) - 2 * k(student-teacher),  divided by 128 * 128 = 16384, and
  the result is the mean of the 32 per-entry losses.

  The float literals stay the words the two programs print (0.0, 8192.0, 2.0, 16384.0, 32.0): both programs hold the same
  words at the same places, so none of them is ever evaluated, except the zero a sum starts from.
-/
import Idealize.ShloMosaic.PureOps.Ideal.Laws
import Idealize.ShloMosaic.Lib.ValueIdx

noncomputable section

namespace Cert.GramLoss

open Idealize.ShloMosaic Idealize.ShloMosaic.ValueIdx

/-- The student features: batch entry, position, channel. -/
abbrev Student : Type := (⟨3, ![32, 8192, 128]⟩ : Shape).Idx → EReal
/-- The teacher features: batch entry, channel. -/
abbrev Teacher : Type := (⟨2, ![32, 128]⟩ : Shape).Idx → EReal

/-- The student-student Gram entry of batch entry `b` at the channel pair (p, q): the sum over the positions. -/
def gram (x : Student) (b : Fin 32) (p q : Fin 128) : EReal := ∑ s : Fin 8192, x (ix3 b s p) * x (ix3 b s q)

/-- Channel `p` of batch entry `b` summed over the positions. -/
def colSum (x : Student) (b : Fin 32) (p : Fin 128) : EReal := ∑ s : Fin 8192, x (ix3 b s p)

/-- The polynomial kernel of degree 2 and offset 0.0 at a Gram entry: (g + 0) * (g + 0). -/
def kern (g : EReal) : EReal := (g + Ideal.ofBits .f32 0x00000000#32) * (g + Ideal.ofBits .f32 0x00000000#32)

/-- The summand of batch entry `b` at the channel pair (p, q). -/
def entry (x : Student) (t : Teacher) (b : Fin 32) (p q : Fin 128) : EReal :=
  kern (gram x b p q) + kern (Ideal.ofBits .f32 0x46000000#32 * (t (ix2 b p) * t (ix2 b q)))
    - Ideal.ofBits .f32 0x40000000#32 * kern (colSum x b p * t (ix2 b q))

/-- The loss of batch entry `b`: the sum over the channel pairs, row by row, divided by 16384. -/
def perSample (x : Student) (t : Teacher) (b : Fin 32) : EReal :=
  Ideal.div (∑ p : Fin 128, ∑ q : Fin 128, entry x t b p q) (Ideal.ofBits .f32 0x46800000#32)

/-- The 32 per-entry losses as a vector. -/
def perSampleVec (x : Student) (t : Teacher) : FVec Ideal ⟨1, ![32]⟩ .f32 :=
  fun j => perSample x t ⟨(j 0).val, (j 0).isLt⟩

/-- The mean of a vector of 32: the host's sum from 0.0, divided by 32.0. Both programs end with these two host
    operations, so it is kept as one closed term and never opened. -/
def batchMean (v : FVec Ideal ⟨1, ![32]⟩ .f32) : FVec Ideal ⟨0, ![]⟩ .f32 :=
  Host.divf (Host.reduceAdd (F := Ideal) (axes := [0]) (t := ⟨0, ![]⟩) v (constant (F := Ideal) ⟨0, ![]⟩ .f32 0x00000000#32))
    (constant (F := Ideal) ⟨0, ![]⟩ .f32 0x42000000#32)

/-- The loss: the mean of the per-entry losses. -/
def loss (x : Student) (t : Teacher) : FVec Ideal ⟨0, ![]⟩ .f32 := batchMean (perSampleVec x t)

end Cert.GramLoss

end
-- ==== Proof.ReferenceLoss.lean ====
/-
  The reference program's result is the polynomial-kernel feature-matching loss of Proof/GramLoss.lean, over the
  extended reals.

  The reference forms, for each batch entry b and channel pair (p, q), the summand
      k(G[b, p, q]) + k(8192 * (t[b, p] * t[b, q])) - 2 * k((sum over s of x[b, s, p]) * t[b, q]),
  with G the student-student Gram matrix over the positions and k(g) = (g + 0) * (g + 0); sums the summands of each
  batch entry over both channel axes at once; divides by 16384; and takes the mean of the 32 quotients.

  The one step that is more than reading an operation at an index is the sum over both channel axes: the indices of a
  [32, 128, 128] array whose two channel coordinates drop to a given batch index j are exactly the (j, p, q), so the sum
  over them is the double sum over p and q (`sum_filter_drop`, through the triple sum over the coordinates,
  `sum_idx3`). Every other stage is read at an index through the generated module's lemmas, and the composed index
  functions are the coordinate indices (b, s, p), (b, p), (b, q).

  The float literals stay the words both sides print; only the zero a sum starts from is evaluated (it is 0).
-/
import proofs.«175096_j48258252538614_2_alg».proof.Proof.GramLoss
import proofs.«175096_j48258252538614_2_alg».proof.Proof.Gen.ReferenceIdeal.Read
import Idealize.ShloMosaic.Lib.ValueIdx
import Idealize.ShloMosaic.PureOps.Ideal.Laws

noncomputable section

namespace Cert.ReferenceLoss

open Cert.ReferenceIdeal Cert.ReferenceIdeal.Gen Cert.ReferenceIdeal.Read Idealize.ShloMosaic Idealize.ShloMosaic.ValueIdx
open scoped BigOperators

/-! ## A sum over a rank-3 index set, by coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The sum over both channel axes -/

/-- Dropping the two channel coordinates of (a, p, q) gives the rank-1 index j exactly when a is j's coordinate. -/
theorem drop_ix3_eq_iff (a : Fin 32) (p q : Fin 128) (j : S32.Idx) :
    reducesTo_S32x128x128_S32_d1_2.drop (ix3 a p q) = j ↔ a = ⟨(j 0).val, (j 0).isLt⟩ := by
  have h0 : ((reducesTo_S32x128x128_S32_d1_2.drop (ix3 a p q) 0 : Fin _) : Nat) = a.val :=
    Shape.ReducesTo.drop_apply_val_of_eq reducesTo_S32x128x128_S32_d1_2 (ix3 a p q) 0 0
  constructor
  · intro h
    refine Fin.ext ?_
    rw [← h0, h]
  · intro h
    funext c
    match c with
    | ⟨0, _⟩ =>
      refine Fin.ext ?_
      exact h0.trans (congrArg Fin.val h)

/-- The sum over the indices of a [32, 128, 128] array whose two channel coordinates drop to j is the double sum over
    the channel pairs at j's batch entry: written as a sum of "if it drops to j" terms over all (a, p, q), only
    a = j 0 contributes. -/
theorem sum_filter_drop (f : S32x128x128.Idx → EReal) (j : S32.Idx)
    [DecidablePred fun i : S32x128x128.Idx => reducesTo_S32x128x128_S32_d1_2.drop i = j] :
    ∑ i ∈ Finset.univ.filter (fun i : S32x128x128.Idx => reducesTo_S32x128x128_S32_d1_2.drop i = j), f i
      = ∑ p : Fin 128, ∑ q : Fin 128, f (ix3 (⟨(j 0).val, (j 0).isLt⟩ : Fin 32) p q) := by
  rw [Finset.sum_filter, sum_idx3]
  simp only [drop_ix3_eq_iff]
  rw [Finset.sum_eq_single (⟨(j 0).val, (j 0).isLt⟩ : Fin 32)]
  · simp
  · intro a _ ha
    simp [ha]
  · intro h
    exact absurd (Finset.mem_univ _) h

/-- The sum over the two channel axes, read at the batch index j: the double sum of the summands over the channel pairs
    (the sum starts from the word 0.0, which is 0). -/
theorem v27_apply (x : Cert.GramLoss.Student) (t : Cert.GramLoss.Teacher) (j : S32.Idx) :
    val_main_v27 (F := Ideal) x t j
      = ∑ p : Fin 128, ∑ q : Fin 128, val_main_v26 (F := Ideal) x t (ix3 (⟨(j 0).val, (j 0).isLt⟩ : Fin 32) p q) := by
  unfold val_main_v27
  simp only [Host.reduceAdd, Ideal.hostReduceAdd_def]
  unfold Ideal.hostReduceAdd
  rw [sum_filter_drop, val_main_cst_5_apply]
  show Ideal.ofBits .f32 0x00000000#32 + _ = _
  rw [Ideal.ofBits_zero_f32, zero_add]

/-! ## The summand at (b, p, q) -/

/-- The contraction over the positions at (b, p, q) is the student-student Gram entry: its two operand indices at
    position s are (b, s, p) and (b, s, q). -/
theorem v0_entry (x : Cert.GramLoss.Student) (b : Fin 32) (p q : Fin 128) :
    val_main_v0 (F := Ideal) x (ix3 b p q) = Cert.GramLoss.gram x b p q := by
  rw [val_main_v0_apply]
  unfold Cert.GramLoss.gram
  refine Finset.sum_congr rfl fun k _ => ?_
  have el : lidx_main_v0 (ix3 b p q) k = ix3 b k p :=
    funext fun a => by match a with | ⟨0, _⟩ => rfl | ⟨1, _⟩ => rfl | ⟨2, _⟩ => rfl
  have er : ridx_main_v0 (ix3 b p q) k = ix3 b k q :=
    funext fun a => by match a with | ⟨0, _⟩ => rfl | ⟨1, _⟩ => rfl | ⟨2, _⟩ => rfl
  rw [el, er]

/-- The sum over the positions at (b, p) is the channel's column sum: it starts from the word 0.0, which is 0, and its
    operand index at position s is (b, s, p). -/
theorem v8_entry (x : Cert.GramLoss.Student) (b : Fin 32) (p : Fin 128) :
    val_main_v8 (F := Ideal) x (ix2 b p) = Cert.GramLoss.colSum x b p := by
  rw [val_main_v8_apply, val_main_cst_0_apply]
  show Ideal.ofBits .f32 0x00000000#32 + _ = _
  rw [Ideal.ofBits_zero_f32, zero_add]
  unfold Cert.GramLoss.colSum
  refine Finset.sum_congr rfl fun k _ => ?_
  have e : idx_main_v8 (ix2 b p) k = ix3 b k p :=
    funext fun a => by match a with | ⟨0, _⟩ => rfl | ⟨1, _⟩ => rfl | ⟨2, _⟩ => rfl
  rw [e]

/-- The summand the reference forms at the batch entry b and the channel pair (p, q) is the specification's: the
    broadcast constants read their words, the broadcast teacher rows read t at (b, p) and (b, q), the broadcast column
    sum reads the column sum at (b, p), and the elementwise operations are the extended reals'. -/
theorem v26_entry (x : Cert.GramLoss.Student) (t : Cert.GramLoss.Teacher) (b : Fin 32) (p q : Fin 128) :
    val_main_v26 (F := Ideal) x t (ix3 b p q) = Cert.GramLoss.entry x t b p q := by
  have c6 : val_main_v6 (F := Ideal) (ix3 b p q) = Ideal.ofBits .f32 0x46000000#32 := by
    rw [val_main_v6_apply, val_main_cst_apply]; rfl
  have c14 : val_main_v14 (F := Ideal) (ix3 b p q) = Ideal.ofBits .f32 0x00000000#32 := by
    rw [val_main_v14_apply, val_main_cst_1_apply]; rfl
  have c17 : val_main_v17 (F := Ideal) (ix3 b p q) = Ideal.ofBits .f32 0x00000000#32 := by
    rw [val_main_v17_apply, val_main_cst_2_apply]; rfl
  have c21 : val_main_v21 (F := Ideal) (ix3 b p q) = Ideal.ofBits .f32 0x00000000#32 := by
    rw [val_main_v21_apply, val_main_cst_3_apply]; rfl
  have c24 : val_main_v24 (F := Ideal) (ix3 b p q) = Ideal.ofBits .f32 0x40000000#32 := by
    rw [val_main_v24_apply, val_main_cst_4_apply]; rfl
  have t3 : val_main_v3 (F := Ideal) t (ix3 b p q) = t (ix2 b p) := by
    rw [val_main_v3_apply, val_main_v1_apply]
    exact congrArg t (funext fun a => by match a with | ⟨0, _⟩ => rfl | ⟨1, _⟩ => rfl)
  have t4 : val_main_v4 (F := Ideal) t (ix3 b p q) = t (ix2 b q) := by
    rw [val_main_v4_apply, val_main_v2_apply]
    exact congrArg t (funext fun a => by match a with | ⟨0, _⟩ => rfl | ⟨1, _⟩ => rfl)
  have t12 : val_main_v12 (F := Ideal) t (ix3 b p q) = t (ix2 b q) := by
    rw [val_main_v12_apply, val_main_v10_apply]
    exact congrArg t (funext fun a => by match a with | ⟨0, _⟩ => rfl | ⟨1, _⟩ => rfl)
  have t11 : val_main_v11 (F := Ideal) x (ix3 b p q) = Cert.GramLoss.colSum x b p := by
    rw [val_main_v11_apply, val_main_v9_apply]
    have e : idx_main_v9 (idx_main_v11 (ix3 b p q)) = ix2 b p :=
      funext fun a => by match a with | ⟨0, _⟩ => rfl | ⟨1, _⟩ => rfl
    rw [e, v8_entry]
  rw [val_main_v26_apply, val_main_v20_apply, val_main_v25_apply, val_main_v16_apply, val_main_v19_apply,
    val_main_v23_apply, val_main_v15_apply, val_main_v18_apply, val_main_v22_apply, val_main_v7_apply,
    val_main_v13_apply, val_main_v5_apply, v0_entry, c6, c14, c17, c21, c24, t3, t4, t11, t12]
  rfl

/-! ## The per-entry losses and their mean -/

/-- The 32 per-entry quotients the reference forms are the specification's per-entry losses: at j, the double sum of
    the summands at the batch entry j 0, divided by the word 16384.0. -/
theorem v29_eq (x : Cert.GramLoss.Student) (t : Cert.GramLoss.Teacher) :
    val_main_v29 (F := Ideal) x t = Cert.GramLoss.perSampleVec x t := by
  funext j
  rw [val_main_v29_apply, v27_apply, val_main_v28_apply, val_main_cst_6_apply]
  simp only [v26_entry]
  rfl

/-- The reference's result is the specification's loss: both end with the same sum from 0.0 over the 32 per-entry
    losses and the same division by 32.0. -/
theorem val_eq_loss (x : Cert.GramLoss.Student) (t : Cert.GramLoss.Teacher) :
    Cert.ReferenceIdeal.Read.val_main_v31 (F := Ideal) x t = Cert.GramLoss.loss x t := by
  unfold Cert.GramLoss.loss
  rw [← v29_eq]
  rfl

end Cert.ReferenceLoss

end
-- ==== Proof.KernelGram.lean ====
/-
  The matrix-unit part of the kernel body, read at an index over the extended reals.

  The body packs the two batch entries of a grid step side by side along the channel axis: row s of the packed
  operand is the 128 channels of the first entry followed by the 128 channels of the second (the change of float
  format is the identity on extended reals). One product of the packed operand with itself, contracted over the
  8192 positions, is a 256 by 256 matrix whose two diagonal 128 by 128 blocks are the two entries' Gram matrices
  (the off-diagonal blocks mix the two entries and are never read). One product of a row vector with the packed
  operand is a 1 by 256 row whose two halves are the two entries' channel sums weighted by that row vector.
-/
import proofs.«175096_j48258252538614_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelLoss

open Cert.KernelIdeal Cert.KernelIdeal.Gen Idealize.ShloMosaic Idealize.ShloMosaic.ValueIdx

/-! ## The packed operand -/

/-- A [1, 8192, 128] block viewed as [8192, 128]: position s, channel p reads (0, s, p). -/
theorem dropLead_apply (v : Vec Ideal S1x8192x128 .f32) (s : Fin 8192) (p : Fin 128) :
    shapeCast S8192x128 v shapeCasts_S1x8192x128_S8192x128 (ix2 s p) = v (ix3 0 s p) :=
  shapeCast_apply v shapeCasts_S1x8192x128_S8192x128 (ix2 s p) (ix3 0 s p) (by
    rw [Shape.rowMajor_val_three, Shape.rowMajor_val_two]
    show ((0 : Nat) * 8192 + s.val) * 128 + p.val = s.val * 128 + p.val
    omega)

/-- Columns 0..127 of the packed operand are the first entry's channels. -/
theorem packed_left (v0 v3 : Vec Ideal S1x8192x128 .f32) (s : Fin 8192) (p : Fin 128) :
    k0_pay2 (F := Ideal) v0 v3 (ix2 s (⟨p.val, by omega⟩ : Fin 256)) = v0 (ix3 0 s p) := by
  unfold k0_pay2
  refine (concatenate_pair_apply_left (1 : Fin S8192x256.rank) _ _ concatenates_S8192x128_S8192x128_S8192x256_d1
    (ix2 s (⟨p.val, by omega⟩ : Fin 256)) rfl (ix2 s p) (fun b => ?_)).trans ?_
  · match b with
    | ⟨0, _⟩ => rfl
    | ⟨1, _⟩ => rfl
  · exact dropLead_apply v0 s p

/-- Columns 128..255 of the packed operand are the second entry's channels. -/
theorem packed_right (v0 v3 : Vec Ideal S1x8192x128 .f32) (s : Fin 8192) (p : Fin 128) :
    k0_pay2 (F := Ideal) v0 v3 (ix2 s (⟨128 + p.val, by omega⟩ : Fin 256)) = v3 (ix3 0 s p) := by
  unfold k0_pay2
  refine (concatenate_pair_apply_right (1 : Fin S8192x256.rank) _ _ concatenates_S8192x128_S8192x128_S8192x256_d1
    (ix2 s (⟨128 + p.val, by omega⟩ : Fin 256)) rfl rfl (ix2 s p) (fun b hb => ?_) ?_).trans ?_
  · match b with
    | ⟨0, _⟩ => rfl
    | ⟨1, _⟩ => exact absurd rfl hb
  · show p.val + 128 = 128 + p.val
    omega
  · exact dropLead_apply v3 s p

/-! ## The two products -/

/-- The contraction of the packed operand with itself: both operands are contracted over their axis 0 (the
    positions), so the result's row index reads the left operand's column and its column index the right's. -/
abbrev dGram : DotDims S8192x256 S8192x256 S256x256 := dot_S8192x256_S8192x256_S256x256_0_0_1_1_n_n
/-- The row-vector product: a plain [1, 8192] by [8192, 256] contraction. -/
abbrev dRow : DotDims S1x8192 S8192x256 S1x256 := dot_S1x8192_S8192x256_S1x256_1_0_0_1_n_n

theorem dGram_lhs_col (j : S256x256.Idx) (q : dGram.contr.Idx) : (dGram.lhsIdx j q 1).val = (j 0).val := by
  unfold DotDims.lhsIdx
  rw [dif_neg (show ¬(1 : Fin S8192x256.rank) ∈ dGram.lhsBatch by decide),
    dif_pos (show (1 : Fin S8192x256.rank) ∈ dGram.lhsNonContracting by decide)]
  rfl
theorem dGram_rhs_col (j : S256x256.Idx) (q : dGram.contr.Idx) : (dGram.rhsIdx j q 1).val = (j 1).val := by
  unfold DotDims.rhsIdx
  rw [dif_neg (show ¬(1 : Fin S8192x256.rank) ∈ dGram.rhsBatch by decide),
    dif_pos (show (1 : Fin S8192x256.rank) ∈ dGram.rhsNonContracting by decide)]
  rfl
theorem dRow_lhs_row (j : S1x256.Idx) (q : dRow.contr.Idx) : (dRow.lhsIdx j q 0).val = (j 0).val := by
  unfold DotDims.lhsIdx
  rw [dif_neg (show ¬(0 : Fin S1x8192.rank) ∈ dRow.lhsBatch by decide),
    dif_pos (show (0 : Fin S1x8192.rank) ∈ dRow.lhsNonContracting by decide)]
  rfl
theorem dRow_rhs_col (j : S1x256.Idx) (q : dRow.contr.Idx) : (dRow.rhsIdx j q 1).val = (j 1).val := by
  unfold DotDims.rhsIdx
  rw [dif_neg (show ¬(1 : Fin S8192x256.rank) ∈ dRow.rhsBatch by decide),
    dif_pos (show (1 : Fin S8192x256.rank) ∈ dRow.rhsNonContracting by decide)]
  rfl

/-- The 256 by 256 product into the zero accumulator, at (i, j): the sum over the positions of the packed operand's
    columns i and j. -/
theorem gramFull_apply (xb : FVec Ideal S8192x256 .bf16) (i j : Fin 256) :
    matmul (F := Ideal) dGram none xb xb (constant S256x256 .f32 0x00000000#32) (ix2 i j)
      = ∑ s : Fin 8192, xb (ix2 s i) * xb (ix2 s j) := by
  simp only [matmul]
  rw [Ideal.matmul_constant_zero_apply, ← Equiv.sum_comp (contrEquiv1 dGram 8192 rfl rfl).symm]
  refine Finset.sum_congr rfl fun k _ => ?_
  have hk := contrEquiv1_symm_val dGram 8192 rfl rfl k
  have el : dGram.lhsIdx (ix2 i j) ((contrEquiv1 dGram 8192 rfl rfl).symm k) = ix2 k i := funext fun a => Fin.ext (by
    match a with
    | ⟨0, _⟩ => exact (dGram.lhsIdx_val_of_single rfl _ _).trans hk
    | ⟨1, _⟩ => exact dGram_lhs_col _ _)
  have er : dGram.rhsIdx (ix2 i j) ((contrEquiv1 dGram 8192 rfl rfl).symm k) = ix2 k j := funext fun a => Fin.ext (by
    match a with
    | ⟨0, _⟩ => exact (dGram.rhsIdx_val_of_single rfl _ _).trans hk
    | ⟨1, _⟩ => exact dGram_rhs_col _ _)
  rw [el, er]

/-- The row-vector product into the zero accumulator, at (0, j): the sum over the positions of the row vector's entry
    times the packed operand's column j. -/
theorem rowProd_apply (w : FVec Ideal S1x8192 .bf16) (xb : FVec Ideal S8192x256 .bf16) (j : Fin 256) :
    matmul (F := Ideal) dRow none w xb (constant S1x256 .f32 0x00000000#32) (ix2 0 j)
      = ∑ s : Fin 8192, w (ix2 0 s) * xb (ix2 s j) := by
  simp only [matmul]
  rw [Ideal.matmul_constant_zero_apply, ← Equiv.sum_comp (contrEquiv1 dRow 8192 rfl rfl).symm]
  refine Finset.sum_congr rfl fun k _ => ?_
  have hk := contrEquiv1_symm_val dRow 8192 rfl rfl k
  have el : dRow.lhsIdx (ix2 0 j) ((contrEquiv1 dRow 8192 rfl rfl).symm k) = ix2 0 k := funext fun a => Fin.ext (by
    match a with
    | ⟨0, _⟩ => exact dRow_lhs_row _ _
    | ⟨1, _⟩ => exact (dRow.lhsIdx_val_of_single rfl _ _).trans hk)
  have er : dRow.rhsIdx (ix2 0 j) ((contrEquiv1 dRow 8192 rfl rfl).symm k) = ix2 k j := funext fun a => Fin.ext (by
    match a with
    | ⟨0, _⟩ => exact (dRow.rhsIdx_val_of_single rfl _ _).trans hk
    | ⟨1, _⟩ => exact dRow_rhs_col _ _)
  rw [el, er]

/-! ## The diagonal blocks and the two halves -/

/-- The first diagonal block of the 256 by 256 product is the first entry's Gram matrix. -/
theorem gram_first (v0 v3 : Vec Ideal S1x8192x128 .f32) (p q : Fin 128) :
    extractStridedSlice S128x128 ![0, 0] (k0_pay3 (F := Ideal) v0 v3) slices_S256x256_o0_0_S128x128 (ix2 p q)
      = ∑ s : Fin 8192, v0 (ix3 0 s p) * v0 (ix3 0 s q) := by
  refine (extractStridedSlice_apply _ _ slices_S256x256_o0_0_S128x128 (ix2 p q)
    (ix2 (⟨p.val, by omega⟩ : Fin 256) (⟨q.val, by omega⟩ : Fin 256)) (fun a => ?_)).trans ?_
  · match a with
    | ⟨0, _⟩ => show p.val = 0 + p.val; omega
    | ⟨1, _⟩ => show q.val = 0 + q.val; omega
  · refine (gramFull_apply (k0_pay2 (F := Ideal) v0 v3) _ _).trans ?_
    refine Finset.sum_congr rfl fun s _ => ?_
    rw [packed_left, packed_left]

/-- The second diagonal block is the second entry's Gram matrix. -/
theorem gram_second (v0 v3 : Vec Ideal S1x8192x128 .f32) (p q : Fin 128) :
    k0_pay4 (F := Ideal) v0 v3 (ix2 p q) = ∑ s : Fin 8192, v3 (ix3 0 s p) * v3 (ix3 0 s q) := by
  unfold k0_pay4
  refine (extractStridedSlice_apply _ _ slices_S256x256_o128_128_S128x128 (ix2 p q)
    (ix2 (⟨128 + p.val, by omega⟩ : Fin 256) (⟨128 + q.val, by omega⟩ : Fin 256)) (fun a => ?_)).trans ?_
  · match a with
    | ⟨0, _⟩ => rfl
    | ⟨1, _⟩ => rfl
  · refine (gramFull_apply (k0_pay2 (F := Ideal) v0 v3) _ _).trans ?_
    refine Finset.sum_congr rfl fun s _ => ?_
    rw [packed_right, packed_right]

/-- The row product the body takes, with the row vector's identity shape cast removed. -/
theorem rowProd_eq (v0 v3 : Vec Ideal S1x8192x128 .f32) (v10 : Vec Ideal S1x8192 .bf16) (j : Fin 256) :
    k0_pay5 (F := Ideal) v0 v3 v10 (ix2 0 j) = ∑ s : Fin 8192, v10 (ix2 0 s) * k0_pay2 (F := Ideal) v0 v3 (ix2 s j) := by
  unfold k0_pay5
  rw [shapeCast_self]
  exact rowProd_apply v10 (k0_pay2 (F := Ideal) v0 v3) j

/-- The first half of the row product: the first entry's channels summed over the positions, each weighted by the row
    vector's entry. -/
theorem colsum_first (v0 v3 : Vec Ideal S1x8192x128 .f32) (v10 : Vec Ideal S1x8192 .bf16) (q : Fin 128) :
    extractStridedSlice S1x128 ![0, 0] (k0_pay5 (F := Ideal) v0 v3 v10) slices_S1x256_o0_0_S1x128 (ix2 0 q)
      = ∑ s : Fin 8192, v10 (ix2 0 s) * v0 (ix3 0 s q) := by
  refine (extractStridedSlice_apply _ _ slices_S1x256_o0_0_S1x128 (ix2 0 q)
    (ix2 (0 : Fin 1) (⟨q.val, by omega⟩ : Fin 256)) (fun a => ?_)).trans ?_
  · match a with
    | ⟨0, _⟩ => rfl
    | ⟨1, _⟩ => show q.val = 0 + q.val; omega
  · rw [rowProd_eq]
    refine Finset.sum_congr rfl fun s _ => ?_
    rw [packed_left]

/-- The second half: the second entry's. -/
theorem colsum_second (v0 v3 : Vec Ideal S1x8192x128 .f32) (v10 : Vec Ideal S1x8192 .bf16) (q : Fin 128) :
    k0_pay6 (F := Ideal) v0 v3 v10 (ix2 0 q) = ∑ s : Fin 8192, v10 (ix2 0 s) * v3 (ix3 0 s q) := by
  unfold k0_pay6
  refine (extractStridedSlice_apply _ _ slices_S1x256_o0_128_S1x128 (ix2 0 q)
    (ix2 (0 : Fin 1) (⟨128 + q.val, by omega⟩ : Fin 256)) (fun a => ?_)).trans ?_
  · match a with
    | ⟨0, _⟩ => rfl
    | ⟨1, _⟩ => rfl
  · rw [rowProd_eq]
    refine Finset.sum_congr rfl fun s _ => ?_
    rw [packed_right]

end Cert.KernelLoss

end
-- ==== Proof.KernelCombine.lean ====
/-
  The vector-unit part of the kernel body, read at an index over the extended reals.

  From a 128 by 128 Gram matrix G, a row xs of 128 channel sums and a teacher row t, the body forms, entry by entry,
      k(G[p, q]) + k(8192 * (t[p] * t[q])) - 2 * k(xs[p] * t[q]),        k(g) = (g + 0) * (g + 0),
  the teacher row and the channel sums being turned into columns (a transpose of a one-row matrix) and both spread
  over the 128 by 128 square (a column repeats along its row, a row along its column). It then sums each row of the
  square, sums the 128 row sums, and divides by 16384.
-/
import proofs.«175096_j48258252538614_2_alg».proof.Proof.Gen.KernelIdeal.Skeleton
import proofs.«175096_j48258252538614_2_alg».proof.Proof.GramLoss
import Idealize.ShloMosaic.Lib.Pipeline.Value
import Idealize.ShloMosaic.Lib.ValueIdx
import Idealize.ShloMosaic.PureOps.Ideal.Laws

noncomputable section

namespace Cert.KernelLoss

open Cert.KernelIdeal Cert.KernelIdeal.Gen Idealize.ShloMosaic Idealize.ShloMosaic.ValueIdx

/-! ## Rows, columns and their spreading over the square -/

/-- A [1, 1, 128] block viewed as a [1, 128] row: channel q reads (0, 0, q). -/
theorem row_apply (tr : Vec Ideal S1x1x128 .f32) (q : Fin 128) :
    shapeCast S1x128 tr shapeCasts_S1x1x128_S1x128 (ix2 0 q) = tr (ix3 0 0 q) :=
  shapeCast_apply tr shapeCasts_S1x1x128_S1x128 (ix2 0 q) (ix3 0 0 q) (by
    rw [Shape.rowMajor_val_three, Shape.rowMajor_val_two]
    show ((0 : Nat) * 1 + 0) * 128 + q.val = 0 * 128 + q.val
    omega)

/-- The transpose of a one-row matrix is a column: entry (p, 0) reads (0, p). -/
theorem col_apply (r : FVec Ideal S1x128 .f32) (p : Fin 128) :
    transpose S128x1 [1, 0] r transposes_S1x128_p1_0_S128x1 (ix2 p 0) = r (ix2 0 p) :=
  transpose_apply [1, 0] r transposes_S1x128_p1_0_S128x1 (ix2 p 0) (ix2 0 p) (fun b => by
    match b with
    | ⟨0, _⟩ => rfl
    | ⟨1, _⟩ => rfl)

/-- A column spread over the square repeats along each row: (p, q) reads (p, 0). -/
theorem spreadCol_apply (col : FVec Ideal S128x1 .f32) (p q : Fin 128) :
    broadcastTo S128x128 col broadcasts_S128x1_S128x128 (ix2 p q) = col (ix2 p 0) :=
  broadcastTo_apply col broadcasts_S128x1_S128x128 (ix2 p q) (ix2 p 0) (fun a => by
    match a with
    | ⟨0, _⟩ => show p.val = if (128 : Nat) = 1 then 0 else p.val; rw [if_neg (by decide)]
    | ⟨1, _⟩ => show (0 : Nat) = if (1 : Nat) = 1 then 0 else q.val; rw [if_pos rfl])

/-- A row spread over the square repeats along each column: (p, q) reads (0, q). -/
theorem spreadRow_apply (row : FVec Ideal S1x128 .f32) (p q : Fin 128) :
    broadcastTo S128x128 row broadcasts_S1x128_S128x128 (ix2 p q) = row (ix2 0 q) :=
  broadcastTo_apply row broadcasts_S1x128_S128x128 (ix2 p q) (ix2 0 q) (fun a => by
    match a with
    | ⟨0, _⟩ => show (0 : Nat) = if (1 : Nat) = 1 then 0 else p.val; rw [if_pos rfl]
    | ⟨1, _⟩ => show q.val = if (128 : Nat) = 1 then 0 else q.val; rw [if_neg (by decide)])

/-! ## The combination of the three kernelled Gram matrices -/

/-- The square the body forms from a Gram matrix, a row of channel sums and a teacher block. -/
def comb (G : FVec Ideal S128x128 .f32) (xs : FVec Ideal S1x128 .f32) (tr : Vec Ideal S1x1x128 .f32) : FVec Ideal S128x128 .f32 :=
  let t : FVec Ideal S1x128 .f32 := shapeCast S1x128 tr shapeCasts_S1x1x128_S1x128
  let tcol : FVec Ideal S128x1 .f32 := transpose S128x1 [1, 0] t transposes_S1x128_p1_0_S128x1
  let xcol : FVec Ideal S128x1 .f32 := transpose S128x1 [1, 0] xs transposes_S1x128_p1_0_S128x1
  let z : FVec Ideal S128x128 .f32 := broadcast S128x128 (Scalar.ofBits (F := Ideal) .f32 0x00000000#32)
  let tt : FVec Ideal S128x128 .f32 := mulf (broadcast S128x128 (Scalar.ofBits (F := Ideal) .f32 0x46000000#32))
    (mulf (broadcastTo S128x128 tcol broadcasts_S128x1_S128x128) (broadcastTo S128x128 t broadcasts_S1x128_S128x128))
  let st : FVec Ideal S128x128 .f32 := mulf (broadcastTo S128x128 xcol broadcasts_S128x1_S128x128) (broadcastTo S128x128 t broadcasts_S1x128_S128x128)
  subf (addf (mulf (addf G z) (addf G z)) (mulf (addf tt z) (addf tt z)))
    (mulf (broadcast S128x128 (Scalar.ofBits (F := Ideal) .f32 0x40000000#32)) (mulf (addf st z) (addf st z)))

/-- Entry (p, q) of that square. -/
theorem comb_apply (G : FVec Ideal S128x128 .f32) (xs : FVec Ideal S1x128 .f32) (tr : Vec Ideal S1x1x128 .f32) (p q : Fin 128) :
    comb G xs tr (ix2 p q)
      = GramLoss.kern (G (ix2 p q)) + GramLoss.kern (Ideal.ofBits .f32 0x46000000#32 * (tr (ix3 0 0 p) * tr (ix3 0 0 q)))
        - Ideal.ofBits .f32 0x40000000#32 * GramLoss.kern (xs (ix2 0 p) * tr (ix3 0 0 q)) := by
  unfold comb GramLoss.kern
  simp only [subf_apply, addf_apply, mulf_apply, broadcast_apply]
  rw [spreadCol_apply, spreadCol_apply, spreadRow_apply, col_apply, col_apply, row_apply, row_apply]
  rfl

/-! ## The sum over the square, divided by the number of pairs -/

/-- A sum along the rows of the square: row p. -/
theorem rowSums_apply (c : FVec Ideal S128x128 .f32) (hφ : FKind.Formats .f32)
    (hacc : (0x00000000#32 : BitVec 32) = FKind.add.neutral .f32 hφ) (p : Fin 128) :
    multiReduction .add [1] S128 c 0x00000000#32 reduces_S128x128_S128 hφ hacc (ix1 p) = ∑ q : Fin 128, c (ix2 p q) :=
  (Ideal.multiReduction_add_single c 0x00000000#32 reduces_S128x128_S128 hφ hacc (ix1 p)).trans
    (Finset.sum_congr rfl fun k _ => congrArg c (funext fun a => Fin.ext (by
      match a with
      | ⟨0, _⟩ => rfl
      | ⟨1, _⟩ => rfl)))

/-- A sum down a column of 128. -/
theorem colTotal_apply (v : FVec Ideal S128x1 .f32) (hφ : FKind.Formats .f32)
    (hacc : (0x00000000#32 : BitVec 32) = FKind.add.neutral .f32 hφ) :
    multiReduction .add [0] S1 v 0x00000000#32 reduces_S128x1_S1 hφ hacc (ix1 0) = ∑ p : Fin 128, v (ix2 p 0) :=
  (Ideal.multiReduction_add_single v 0x00000000#32 reduces_S128x1_S1 hφ hacc (ix1 0)).trans
    (Finset.sum_congr rfl fun k _ => congrArg v (funext fun a => Fin.ext (by
      match a with
      | ⟨0, _⟩ => rfl
      | ⟨1, _⟩ => rfl)))

/-- A vector of 128 kept as a column: (p, 0) reads p. -/
theorem asCol_apply (u : FVec Ideal S128 .f32) (p : Fin 128) :
    shapeCast S128x1 u shapeCasts_S128_S128x1 (ix2 p 0) = u (ix1 p) :=
  shapeCast_apply u shapeCasts_S128_S128x1 (ix2 p 0) (ix1 p) (by
    rw [Shape.rowMajor_val_one, Shape.rowMajor_val_two]
    show p.val = p.val * 1 + 0
    omega)

/-- A vector of one kept as a 1 by 1 matrix. -/
theorem asOneByOne_apply (u : FVec Ideal S1 .f32) :
    shapeCast S1x1 u shapeCasts_S1_S1x1 (ix2 0 0) = u (ix1 0) :=
  shapeCast_apply u shapeCasts_S1_S1x1 (ix2 0 0) (ix1 0) (by
    rw [Shape.rowMajor_val_one, Shape.rowMajor_val_two]
    rfl)

/-- A 1 by 1 matrix kept as a [1, 1, 1] block. -/
theorem asUnitBlock_apply (u : FVec Ideal S1x1 .f32) :
    shapeCast S1x1x1 u shapeCasts_S1x1_S1x1x1 (ix3 0 0 0) = u (ix2 0 0) :=
  shapeCast_apply u shapeCasts_S1x1_S1x1x1 (ix3 0 0 0) (ix2 0 0) (by
    rw [Shape.rowMajor_val_two, Shape.rowMajor_val_three]
    rfl)

/-- The square summed row by row, the row sums summed, the total divided by 16384. -/
def meanOfPairs (c : FVec Ideal S128x128 .f32) : FVec Ideal S1x1 .f32 :=
  divf (shapeCast S1x1 (multiReduction .add [0] S1 (shapeCast S128x1
      (multiReduction .add [1] S128 c 0x00000000#32 reduces_S128x128_S128 (.inl rfl) rfl) shapeCasts_S128_S128x1)
      0x00000000#32 reduces_S128x1_S1 (.inl rfl) rfl) shapeCasts_S1_S1x1)
    (broadcast S1x1 (Scalar.ofBits (F := Ideal) .f32 0x46800000#32))

/-- Its one entry. -/
theorem meanOfPairs_apply (c : FVec Ideal S128x128 .f32) :
    meanOfPairs c (ix2 0 0) = Ideal.div (∑ p : Fin 128, ∑ q : Fin 128, c (ix2 p q)) (Ideal.ofBits .f32 0x46800000#32) := by
  unfold meanOfPairs
  rw [divf_apply, asOneByOne_apply]
  refine congrArg (fun z => Ideal.div z _) ?_
  refine (colTotal_apply _ _ _).trans (Finset.sum_congr rfl fun p _ => ?_)
  exact (asCol_apply _ p).trans (rowSums_apply c _ _ p)

/-! ## The payloads are these -/

theorem pay7_eq (v0 v3 : Vec Ideal S1x8192x128 .f32) (v10 : Vec Ideal S1x8192 .bf16) (v15 : Vec Ideal S1x1x128 .f32) :
    k0_pay7 (F := Ideal) v0 v3 v10 v15
      = comb (extractStridedSlice S128x128 ![0, 0] (k0_pay3 (F := Ideal) v0 v3) slices_S256x256_o0_0_S128x128)
          (extractStridedSlice S1x128 ![0, 0] (k0_pay5 (F := Ideal) v0 v3 v10) slices_S1x256_o0_0_S1x128) v15 := rfl

theorem pay8_eq (c : FVec Ideal S128x128 .f32) :
    k0_pay8 (F := Ideal) c = shapeCast S1x1x1 (meanOfPairs c) shapeCasts_S1x1_S1x1x1 := rfl

theorem pay9_eq (v9 : FVec Ideal S128x128 .f32) (v14 : FVec Ideal S1x128 .f32) (v49 : Vec Ideal S1x1x128 .f32) :
    k0_pay9 (F := Ideal) v9 v14 v49 = meanOfPairs (comb v9 v14 v49) := rfl

theorem pay1_eq (u : FVec Ideal S1x1 .f32) :
    k0_pay1 (F := Ideal) u = shapeCast S1x1x1 u shapeCasts_S1x1_S1x1x1 := rfl

end Cert.KernelLoss

end
-- ==== Proof.KernelBlock.lean ====
/-
  What one grid step leaves in its [2, 1, 1] output block, over the extended reals.

  A grid step holds two batch entries. From the entry's [8192, 128] student block A, the row vector w the body
  multiplies the packed operand by, and the entry's teacher row T, the loss the body computes for one entry is
      ( sum over the channel pairs (p, q) of
          k(sum_s A[s, p] * A[s, q]) + k(8192 * (T[p] * T[q])) - 2 * k((sum_s w[s] * A[s, p]) * T[q]) ) / 16384.
  The body stores the first entry's loss at (0, 0, 0) and the second's at (1, 0, 0); the two stores tile the block.
  When w is all ones and the blocks are the rows 2 g and 2 g + 1 of the argument arrays, these are the
  specification's per-entry losses at 2 g and 2 g + 1.
-/
import proofs.«175096_j48258252538614_2_alg».proof.Proof.Gen.KernelIdeal.Frame
import proofs.«175096_j48258252538614_2_alg».proof.Proof.KernelGram
import proofs.«175096_j48258252538614_2_alg».proof.Proof.KernelCombine

noncomputable section

namespace Cert.KernelLoss

open Cert.KernelIdeal Cert.KernelIdeal.Gen Idealize.ShloMosaic Idealize.ShloMosaic.ValueIdx

/-! ## One entry's loss from its blocks -/

/-- The loss of one batch entry from its student block, the row vector and its teacher row. -/
def blockLoss (A : Vec Ideal S1x8192x128 .f32) (w : Vec Ideal S1x8192 .bf16) (T : Vec Ideal S1x1x128 .f32) : EReal :=
  Ideal.div (∑ p : Fin 128, ∑ q : Fin 128,
      (GramLoss.kern (∑ s : Fin 8192, A (ix3 0 s p) * A (ix3 0 s q))
        + GramLoss.kern (Ideal.ofBits .f32 0x46000000#32 * (T (ix3 0 0 p) * T (ix3 0 0 q)))
        - Ideal.ofBits .f32 0x40000000#32 * GramLoss.kern ((∑ s : Fin 8192, w (ix2 0 s) * A (ix3 0 s p)) * T (ix3 0 0 q))))
    (Ideal.ofBits .f32 0x46800000#32)

/-- The first store's payload is the first entry's loss. -/
theorem first_eq (v0 v3 : Vec Ideal S1x8192x128 .f32) (v10 : Vec Ideal S1x8192 .bf16) (v15 : Vec Ideal S1x1x128 .f32) :
    k0_pay8 (F := Ideal) (k0_pay7 (F := Ideal) v0 v3 v10 v15) (ix3 0 0 0) = blockLoss v0 v10 v15 := by
  rw [pay8_eq, asUnitBlock_apply, meanOfPairs_apply]
  unfold blockLoss
  refine congrArg (fun z => Ideal.div z _) (Finset.sum_congr rfl fun p _ => Finset.sum_congr rfl fun q _ => ?_)
  rw [pay7_eq, comb_apply, gram_first, colsum_first]

/-- The second store's payload is the second entry's loss. -/
theorem second_eq (v0 v3 : Vec Ideal S1x8192x128 .f32) (v10 : Vec Ideal S1x8192 .bf16) (v49 : Vec Ideal S1x1x128 .f32) :
    k0_pay1 (F := Ideal) (k0_pay9 (F := Ideal) (k0_pay4 (F := Ideal) v0 v3) (k0_pay6 (F := Ideal) v0 v3 v10) v49) (ix3 0 0 0)
      = blockLoss v3 v10 v49 := by
  rw [pay1_eq, asUnitBlock_apply, pay9_eq, meanOfPairs_apply]
  unfold blockLoss
  refine congrArg (fun z => Ideal.div z _) (Finset.sum_congr rfl fun p _ => Finset.sum_congr rfl fun q _ => ?_)
  rw [comb_apply, gram_second, colsum_second]

/-! ## The output block -/

/-- What the two stores leave in the [2, 1, 1] block, as one function of the block index: the first entry's loss in
    row 0, the second's in row 1. -/
def blockOut (x0 : Vec Ideal S2x8192x128 .f32) (x1 : Vec Ideal S2x1x128 .f32) (x2 : Vec Ideal S1x8192 .bf16) : Vec Ideal S2x1x1 .f32 :=
  fun y => if (y 0).val = 0 then blockLoss (View.ld x0 r0_0) (View.ld x2 r0_2) (View.ld x1 r0_3)
    else blockLoss (View.ld x0 r0_1) (View.ld x2 r0_2) (View.ld x1 r0_5)

/-- A [1, 1, 1] block has one index. -/
theorem unitIdx_eq (x : S1x1x1.Idx) : x = ix3 0 0 0 := by
  funext a
  refine Fin.ext ?_
  match a with
  | ⟨0, _⟩ => have h : (x 0).val < 1 := (x 0).isLt; show (x 0).val = 0; omega
  | ⟨1, _⟩ => have h : (x 1).val < 1 := (x 1).isLt; show (x 1).val = 0; omega
  | ⟨2, _⟩ => have h : (x 2).val < 1 := (x 2).isLt; show (x 2).val = 0; omega

/-- The body's two stores leave `blockOut` of the input blocks: each store's payload is the loss of its entry, and the
    two one-element rectangles tile the block. -/
theorem out_eq (x0 : Vec Ideal S2x8192x128 .f32) (x1 : Vec Ideal S2x1x128 .f32) (x2 : Vec Ideal S1x8192 .bf16) :
    out0_3 (F := Ideal) x0 x1 x2 = blockOut x0 x1 x2 := by
  funext y
  unfold out0_3
  refine View.canon_apply_of_pieces (blockOut x0 x1 x2) _ (fun pc hpc x => ?_) y (cover0_3 _ _ y)
  simp only [List.mem_cons, List.not_mem_nil, or_false] at hpc
  rcases hpc with rfl | rfl
  · have hx : x = ix3 0 0 0 := unitIdx_eq x
    rw [hx]
    refine (second_eq _ _ _ _).trans ?_
    exact (if_neg (show ¬((r0_6.emb (ix3 0 0 0)) 0).val = 0 by decide)).symm
  · have hx : x = ix3 0 0 0 := unitIdx_eq x
    rw [hx]
    refine (first_eq _ _ _ _).trans ?_
    exact (if_pos (show ((r0_4.emb (ix3 0 0 0)) 0).val = 0 by decide)).symm

/-! ## Loads through the body's rectangles -/

theorem ld_student0 (x0 : Vec Ideal S2x8192x128 .f32) (s : Fin 8192) (p : Fin 128) :
    View.ld x0 r0_0 (ix3 0 s p) = x0 (ix3 0 s p) :=
  congrArg x0 (funext fun a => Fin.ext (by
    match a with
    | ⟨0, _⟩ => rfl
    | ⟨1, _⟩ => show (0 : Nat) + 1 * s.val = s.val; omega
    | ⟨2, _⟩ => show (0 : Nat) + 1 * p.val = p.val; omega))
theorem ld_student1 (x0 : Vec Ideal S2x8192x128 .f32) (s : Fin 8192) (p : Fin 128) :
    View.ld x0 r0_1 (ix3 0 s p) = x0 (ix3 1 s p) :=
  congrArg x0 (funext fun a => Fin.ext (by
    match a with
    | ⟨0, _⟩ => rfl
    | ⟨1, _⟩ => show (0 : Nat) + 1 * s.val = s.val; omega
    | ⟨2, _⟩ => show (0 : Nat) + 1 * p.val = p.val; omega))
theorem ld_row (x2 : Vec Ideal S1x8192 .bf16) (s : Fin 8192) :
    View.ld x2 r0_2 (ix2 0 s) = x2 (ix2 0 s) :=
  congrArg x2 (funext fun a => Fin.ext (by
    match a with
    | ⟨0, _⟩ => rfl
    | ⟨1, _⟩ => show (0 : Nat) + 1 * s.val = s.val; omega))
theorem ld_teacher0 (x1 : Vec Ideal S2x1x128 .f32) (q : Fin 128) :
    View.ld x1 r0_3 (ix3 0 0 q) = x1 (ix3 0 0 q) :=
  congrArg x1 (funext fun a => Fin.ext (by
    match a with
    | ⟨0, _⟩ => rfl
    | ⟨1, _⟩ => rfl
    | ⟨2, _⟩ => show (0 : Nat) + 1 * q.val = q.val; omega))
theorem ld_teacher1 (x1 : Vec Ideal S2x1x128 .f32) (q : Fin 128) :
    View.ld x1 r0_5 (ix3 0 0 q) = x1 (ix3 1 0 q) :=
  congrArg x1 (funext fun a => Fin.ext (by
    match a with
    | ⟨0, _⟩ => rfl
    | ⟨1, _⟩ => rfl
    | ⟨2, _⟩ => show (0 : Nat) + 1 * q.val = q.val; omega))

/-! ## The block's losses are the specification's -/

/-- One entry's loss from its blocks is the specification's per-entry loss at `b` when the student block holds entry
    `b`'s rows, the teacher row is entry `b`'s, and the row vector is all ones: on the extended reals 1 * a = a, so
    the weighted channel sums are the plain ones. -/
theorem blockLoss_eq_perSample (x : GramLoss.Student) (t : GramLoss.Teacher) (b : Fin 32)
    (A : Vec Ideal S1x8192x128 .f32) (w : Vec Ideal S1x8192 .bf16) (T : Vec Ideal S1x1x128 .f32)
    (hA : ∀ (s : Fin 8192) (p : Fin 128), A (ix3 0 s p) = x (ix3 b s p))
    (hT : ∀ q : Fin 128, T (ix3 0 0 q) = t (ix2 b q))
    (hw : ∀ s : Fin 8192, (w (ix2 0 s) : EReal) = 1) :
    blockLoss A w T = GramLoss.perSample x t b := by
  unfold blockLoss GramLoss.perSample
  refine congrArg (fun z => Ideal.div z _) (Finset.sum_congr rfl fun p _ => Finset.sum_congr rfl fun q _ => ?_)
  unfold GramLoss.entry GramLoss.gram GramLoss.colSum
  have e1 : (∑ s : Fin 8192, A (ix3 0 s p) * A (ix3 0 s q)) = ∑ s : Fin 8192, x (ix3 b s p) * x (ix3 b s q) :=
    Finset.sum_congr rfl fun s _ => by rw [hA, hA]
  have e2 : (∑ s : Fin 8192, w (ix2 0 s) * A (ix3 0 s p)) = ∑ s : Fin 8192, x (ix3 b s p) :=
    Finset.sum_congr rfl fun s _ => by rw [hw, hA, one_mul]
  rw [e1, e2, hT, hT]

/-- The output block at row `l` is the specification's per-entry loss at 2 g + l, when the three input blocks are
    grid step g's: rows 2 g and 2 g + 1 of the student and teacher arrays, and an all-ones row vector. -/
theorem blockOut_eq_perSample (x : GramLoss.Student) (t : GramLoss.Teacher)
    (x0 : Vec Ideal S2x8192x128 .f32) (x1 : Vec Ideal S2x1x128 .f32) (x2 : Vec Ideal S1x8192 .bf16)
    (g : Nat) (hg : 2 * g + 1 < 32)
    (h0 : ∀ (l : Fin 2) (s : Fin 8192) (p : Fin 128), x0 (ix3 l s p) = x (ix3 (⟨2 * g + l.val, by have := l.isLt; omega⟩ : Fin 32) s p))
    (h1 : ∀ (l : Fin 2) (q : Fin 128), x1 (ix3 l 0 q) = t (ix2 (⟨2 * g + l.val, by have := l.isLt; omega⟩ : Fin 32) q))
    (h2 : ∀ s : Fin 8192, (x2 (ix2 0 s) : EReal) = 1) (l : Fin 2) :
    blockOut x0 x1 x2 (ix3 l 0 0) = GramLoss.perSample x t (⟨2 * g + l.val, by have := l.isLt; omega⟩ : Fin 32) := by
  match l with
  | ⟨0, _⟩ =>
    refine (if_pos rfl).trans ?_
    exact blockLoss_eq_perSample x t _ _ _ _ (fun s p => (ld_student0 x0 s p).trans (h0 0 s p))
      (fun q => (ld_teacher0 x1 q).trans (h1 0 q)) (fun s => (ld_row x2 s).trans (h2 s))
  | ⟨1, _⟩ =>
    refine (if_neg (show ¬((1 : Nat) = 0) from Nat.one_ne_zero)).trans ?_
    exact blockLoss_eq_perSample x t _ _ _ _ (fun s p => (ld_student1 x0 s p).trans (h0 1 s p))
      (fun q => (ld_teacher1 x1 q).trans (h1 1 q)) (fun s => (ld_row x2 s).trans (h2 s))

end Cert.KernelLoss

end
-- ==== Proof.KernelArray.lean ====
/-
  The kernel's [32, 1, 1] output array after the run, over the extended reals.

  Grid step g of 16 stages rows 2 g and 2 g + 1 of the student array (window 0) and of the teacher rows (window 1, the
  teacher array viewed [32, 1, 128]), the whole [1, 8192] row vector (window 2), and writes back rows 2 g and 2 g + 1
  of the output (window 3). What it writes back is the specification's per-entry losses at those two rows, so it is
  its block of ONE array, the 32 per-entry losses; the 16 blocks tile the output, which therefore ends holding them.
  The two operand arrays the host writes before the region (the teacher rows viewed [32, 1, 128]; the row vector) are
  taken here by what they hold: the teacher array's entries, and ones.
-/
import proofs.«175096_j48258252538614_2_alg».proof.Proof.Gen.KernelIdeal.Frame
import proofs.«175096_j48258252538614_2_alg».proof.Proof.KernelBlock
import Idealize.ShloMosaic.Lib.Pipeline.Value

set_option maxRecDepth 16384

noncomputable section

namespace Cert.KernelLoss

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The 32 per-entry losses as the [32, 1, 1] array the kernel writes. -/
def lossArr (x : GramLoss.Student) (t : GramLoss.Teacher) : Vec Ideal S32x1x1 .f32 :=
  fun i => GramLoss.perSample x t ⟨(i 0).val, (i 0).isLt⟩

/-- The printed index maps, decided once over the grid: step g stages block g of the student rows, of the teacher rows
    and of the output along the batch axis, and always block 0 of the row vector. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- A grid step's two rows are inside the 32. -/
theorem rows_lt (t : Fin cfg0.N) : 2 * t.val + 1 < 32 := by
  have hN : grid0.N = 16 := N_0
  have ht : t.val < grid0.N := t.isLt
  omega

/-! ## The input blocks at a grid step -/

/-- The student block at step t, row l: row 2 t + l of the student array. -/
theorem read_student (c : Dev nD) (t : Fin cfg0.N) (l : Fin 2) (s : Fin 8192) (p : Fin 128) :
    (iblk m c 0 t : Vec Ideal S2x8192x128 .f32) (ix3 l s p)
      = m ((c : Thread nD τ).loc main_arg0) (ix3 (⟨2 * t.val + l.val, by have := l.isLt; have := rows_lt t; omega⟩ : Fin 32) s p) := by
  show V m c main_arg0 (((cfg0.win 0).blk t).view.emb (ix3 l s p)) = _
  rw [V_main_arg0]
  obtain ⟨e0, e1, e2, -⟩ := idx_facts t
  refine congrArg _ (funext fun a => Fin.ext ?_)
  match a with
  | ⟨0, _⟩ => show win0_0.index t (0 : Fin 3) * 2 + 1 * l.val = 2 * t.val + l.val; omega
  | ⟨1, _⟩ => show win0_0.index t (1 : Fin 3) * 8192 + 1 * s.val = s.val; omega
  | ⟨2, _⟩ => show win0_0.index t (2 : Fin 3) * 128 + 1 * p.val = p.val; omega

/-- The teacher block at step t, row l: row 2 t + l of the teacher array, given what the [32, 1, 128] view holds. -/
theorem read_teacher
    (hT : ∀ (c : Dev nD) (b : Fin 32) (q : Fin 128), (V m c main_v0 : S32x1x128.Idx → EReal) (ix3 b 0 q) = m ((c : Thread nD τ).loc main_arg1) (ix2 b q))
    (c : Dev nD) (t : Fin cfg0.N) (l : Fin 2) (q : Fin 128) :
    (iblk m c 1 t : Vec Ideal S2x1x128 .f32) (ix3 l 0 q)
      = m ((c : Thread nD τ).loc main_arg1) (ix2 (⟨2 * t.val + l.val, by have := l.isLt; have := rows_lt t; omega⟩ : Fin 32) q) := by
  show V m c main_v0 (((cfg0.win 1).blk t).view.emb (ix3 l 0 q)) = _
  obtain ⟨-, -, -, e0, e1, e2, -⟩ := idx_facts t
  have e : ((cfg0.win 1).blk t).view.emb (ix3 l 0 q)
      = ix3 (⟨2 * t.val + l.val, by have := l.isLt; have := rows_lt t; omega⟩ : Fin 32) 0 q := by
    refine funext fun a => Fin.ext ?_
    match a with
    | ⟨0, _⟩ => show win0_1.index t (0 : Fin 3) * 2 + 1 * l.val = 2 * t.val + l.val; omega
    | ⟨1, _⟩ => show win0_1.index t (1 : Fin 3) * 1 + 1 * 0 = 0; omega
    | ⟨2, _⟩ => show win0_1.index t (2 : Fin 3) * 128 + 1 * q.val = q.val; omega
  rw [e]
  exact hT c _ q

/-- The row vector's block at every step is the whole row vector, given that it holds ones. -/
theorem read_ones
    (hO : ∀ (c : Dev nD) (s : Fin 8192), (V m c main_v1 : S1x8192.Idx → EReal) (ix2 0 s) = (1 : EReal))
    (c : Dev nD) (t : Fin cfg0.N) (s : Fin 8192) :
    (iblk m c 2 t : S1x8192.Idx → EReal) (ix2 0 s) = (1 : EReal) := by
  show V m c main_v1 (((cfg0.win 2).blk t).view.emb (ix2 0 s)) = _
  obtain ⟨-, -, -, -, -, -, e0, e1, -⟩ := idx_facts t
  have e : ((cfg0.win 2).blk t).view.emb (ix2 0 s) = ix2 0 s := by
    refine funext fun a => Fin.ext ?_
    match a with
    | ⟨0, _⟩ => show win0_2.index t (0 : Fin 2) * 1 + 1 * 0 = 0; omega
    | ⟨1, _⟩ => show win0_2.index t (1 : Fin 2) * 8192 + 1 * s.val = s.val; omega
  rw [e]
  exact hO c s

/-! ## What a grid step writes back, and the array after the run -/

/-- What grid step t writes back is its block of the array of per-entry losses of the argument arrays. -/
theorem flushed_eq
    (hT : ∀ (c : Dev nD) (b : Fin 32) (q : Fin 128), (V m c main_v0 : S32x1x128.Idx → EReal) (ix3 b 0 q) = m ((c : Thread nD τ).loc main_arg1) (ix2 b q))
    (hO : ∀ (c : Dev nD) (s : Fin 8192), (V m c main_v1 : S1x8192.Idx → EReal) (ix2 0 s) = (1 : EReal))
    (c : Dev nD) (t : Fin cfg0.N) :
    (dats m 0 c).flushed 3 t = ((cfg0.win 3).blk t).view.read (Elt Ideal)
      (lossArr (m ((c : Thread nD τ).loc main_arg0)) (m ((c : Thread nD τ).loc main_arg1))) := by
  show (cfg0.win 3).cut (grid0.coords t) ((dats m 0 c).after 3 t) = _
  rw [after0_3, out_eq]
  obtain ⟨-, -, -, -, -, -, -, -, e0, e1, e2⟩ := idx_facts t
  funext y
  obtain ⟨l, rfl⟩ : ∃ l : Fin 2, y = ix3 l 0 0 := ⟨y 0, funext fun a => Fin.ext (by
    match a with
    | ⟨0, _⟩ => rfl
    | ⟨1, _⟩ => have h : (y 1).val < 1 := (y 1).isLt; show (y 1).val = 0; omega
    | ⟨2, _⟩ => have h : (y 2).val < 1 := (y 2).isLt; show (y 2).val = 0; omega)⟩
  show blockOut (iblk m c 0 t) (iblk m c 1 t) (iblk m c 2 t) (ix3 l 0 0)
    = lossArr (m ((c : Thread nD τ).loc main_arg0)) (m ((c : Thread nD τ).loc main_arg1)) (((cfg0.win 3).blk t).view.emb (ix3 l 0 0))
  refine (blockOut_eq_perSample (m ((c : Thread nD τ).loc main_arg0)) (m ((c : Thread nD τ).loc main_arg1))
    (iblk m c 0 t) (iblk m c 1 t) (iblk m c 2 t) t.val (rows_lt t)
    (fun l s p => read_student m c t l s p) (fun l q => read_teacher m hT c t l q) (fun s => read_ones m hO c t s) l).trans ?_
  unfold lossArr
  refine congrArg (GramLoss.perSample _ _) (Fin.ext ?_)
  show 2 * t.val + l.val = win0_3.index t (0 : Fin 3) * 2 + 1 * l.val
  omega

/-- An index of the output array is in step t's block iff each coordinate is in the block's range on its axis. -/
theorem mem_blk3 (t : Fin cfg0.N) (i : S32x1x1.Idx) :
    i ∈ ((cfg0.win 3).blk t).view.set ↔ ∀ a : Fin 3, win0_3.index t a * S2x1x1.size a ≤ (i a).val
      ∧ (i a).val < win0_3.index t a * S2x1x1.size a + S2x1x1.size a := by
  show i ∈ ((View.whole main_v2).slice (win0_3.rect t)).set ↔ _
  rw [View.set_slice_whole, Rect.mem_set_unit]
  exact Iff.rfl

/-- The 16 blocks tile the output: row r is in step r / 2's block. -/
theorem cover3 (i : S32x1x1.Idx) :
    ∃ t : Fin cfg0.N, (cfg0.win 3).flush t = true ∧ i ∈ ((cfg0.win 3).blk t).view.set := by
  have hN : grid0.N = 16 := N_0
  have hi0 : (i 0).val < 32 := (i 0).isLt
  have hi1 : (i 1).val < 1 := (i 1).isLt
  have hi2 : (i 2).val < 1 := (i 2).isLt
  have hlt : (i 0).val / 2 < grid0.N := by omega
  refine ⟨⟨(i 0).val / 2, hlt⟩, flush0_3 _, ?_⟩
  rw [mem_blk3]
  obtain ⟨-, -, -, -, -, -, -, -, e0, e1, e2⟩ := idx_facts ⟨(i 0).val / 2, hlt⟩
  have e0' : win0_3.index ⟨(i 0).val / 2, hlt⟩ (0 : Fin 3) = (i 0).val / 2 := e0
  intro a
  match a with
  | ⟨0, _⟩ =>
    show win0_3.index ⟨(i 0).val / 2, hlt⟩ (0 : Fin 3) * 2 ≤ (i 0).val
      ∧ (i 0).val < win0_3.index ⟨(i 0).val / 2, hlt⟩ (0 : Fin 3) * 2 + 2
    omega
  | ⟨1, _⟩ =>
    show win0_3.index ⟨(i 0).val / 2, hlt⟩ (1 : Fin 3) * 1 ≤ (i 1).val
      ∧ (i 1).val < win0_3.index ⟨(i 0).val / 2, hlt⟩ (1 : Fin 3) * 1 + 1
    omega
  | ⟨2, _⟩ =>
    show win0_3.index ⟨(i 0).val / 2, hlt⟩ (2 : Fin 3) * 1 ≤ (i 2).val
      ∧ (i 2).val < win0_3.index ⟨(i 0).val / 2, hlt⟩ (2 : Fin 3) * 1 + 1
    omega

/-- The output array after the run: the 32 per-entry losses of the argument arrays. -/
theorem final3
    (hT : ∀ (c : Dev nD) (b : Fin 32) (q : Fin 128), (V m c main_v0 : S32x1x128.Idx → EReal) (ix3 b 0 q) = m ((c : Thread nD τ).loc main_arg1) (ix2 b q))
    (hO : ∀ (c : Dev nD) (s : Fin 8192), (V m c main_v1 : S1x8192.Idx → EReal) (ix2 0 s) = (1 : EReal))
    (c : Dev nD) :
    (dats m 0 c).arrAt 3 cfg0.N = lossArr (m ((c : Thread nD τ).loc main_arg0)) (m ((c : Thread nD τ).loc main_arg1)) :=
  (dats m 0 c).arrAt_eq_of_cover 3 _ (fun t _ => flushed_eq m hT hO c t) cover3

end Cert.KernelLoss

end
-- ==== Proof.KernelHostSides.lean ====
/-
  The kernel program's host side, around its one region, over the extended reals.

  Before the region the host reshapes the teacher features [32, 128] to [32, 1, 128] and broadcasts the bf16 word of
  1.0 to a row [1, 8192]; after it the host reshapes the region's [32, 1, 1] output to a vector of 32, sums it from the
  word 0.0 and divides by the word 32.0. Three facts are read off these operations:
    * the reshaped teacher array at (b, 0, q) is the teacher argument at (b, q): the two indices have the same
      row-major position, b * 128 + q;
    * the broadcast row is 1 at every position: the bf16 word 0x3F80 is the number 1;
    * the program's result is the mean (Proof/GramLoss.lean `batchMean`: the sum from 0.0, divided by 32.0) of the
      region's output array read as a vector of 32 — the two closing host operations are kept as that one closed term.
-/
import proofs.«175096_j48258252538614_2_alg».proof.Proof.Gen.KernelIdeal.Frame
import proofs.«175096_j48258252538614_2_alg».proof.Proof.GramLoss
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelHostSides

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-! ## Before the region -/

/-- The teacher rows as the region finds them: the reshape of the [32, 128] argument to [32, 1, 128], read at
    (b, 0, q), is the argument at (b, q) — both indices sit at the row-major position b * 128 + q. -/
theorem teacher_row (c : Dev nD) (b : Fin 32) (q : Fin 128) :
    (V m c main_v0 : S32x1x128.Idx → EReal) (ix3 b 0 q) = m ((c : Thread nD τ).loc main_arg1) (ix2 b q) := by
  have e : (V m c main_v0 : S32x1x128.Idx → EReal)
      = shapeCast S32x1x128 (m ((c : Thread nD τ).loc main_arg1)) shapeCasts_S32x128_S32x1x128 := by
    show StableHlo.after hostOps0 (fun b => m (c, b)) (Proc.devRef .tc main_v0) = _
    after_results
    rfl
  rw [e]
  refine shapeCast_apply _ _ _ (ix2 b q) ?_
  rw [Shape.rowMajor_val_two, Shape.rowMajor_val_three]
  show b.val * 128 + q.val = (b.val * 1 + 0) * 128 + q.val
  omega

/-- The bf16 word 0x3F80 (sign 0, biased exponent 127, fraction 0) is the number 1. -/
theorem ofBits_bf16_one : Ideal.ofBits .bf16 0x3F80#16 = 1 := by
  simp [Ideal.ofBits, Ideal.ieee, -EReal.coe_mul]; norm_num

/-- The row vector the region finds is all ones: the broadcast of the scalar word 0x3F80 to [1, 8192], read at any
    position, is that word's number, 1. -/
theorem ones_row (c : Dev nD) (s : Fin 8192) :
    (V m c main_v1 : S1x8192.Idx → EReal) (ix2 0 s) = (1 : EReal) := by
  have e : (V m c main_v1 : S1x8192.Idx → EReal)
      = broadcastInDim S1x8192 ![] bcast_S_S1x8192 (constant (F := Ideal) S_ .bf16 0x3F80#16) := by
    show StableHlo.after hostOps0 (fun b => m (c, b)) (Proc.devRef .tc main_v1) = _
    after_results
  rw [e]
  exact (broadcastInDim_apply _ _ _ _ ix0 (fun a => a.elim0)).trans ofBits_bf16_one

/-! ## After the region -/

/-- The program's result: the host operations that follow the region reshape the region's [32, 1, 1] output array (as
    the region leaves it) to a vector of 32, sum it from the word 0.0 and divide by the word 32.0 — the mean of that
    vector. The region's exit contents at the output array are the output window's array after the last grid point. -/
theorem result_eq_batchMean (c : Dev nD) :
    Pipeline.afterTail₀ cfgs (dats m) 0 (V0 m) [hostOps1] c main_v5
      = Cert.GramLoss.batchMean (shapeCast S32 ((dats m 0 c).arrAt 3 cfg0.N) shapeCasts_S32x1x1_S32) := by
  unfold Pipeline.afterTail₀
  show StableHlo.after hostOps1 _ (Proc.devRef .tc main_v5) = _
  after_results
  have h : Pipeline.withArrays (cfgs 0).spec c (V0 m c) (fun w => (dats m 0 c).arrAt w (cfgs 0).N) (Proc.devRef .tc main_v2)
      = (dats m 0 c).arrAt 3 cfg0.N :=
    Pipeline.withArrays_arr spec0 launch0.win.arr_inj c _ _ 3
  rw [h]
  rfl

end Cert.KernelHostSides

end
-- ==== Proof.KernelRun.lean ====
/-
  The kernel program's run over the extended reals, with its result named: the loss of the two argument arrays.

  The frame run of the program leaves the output array of the one region at what the 16 grid steps wrote back — the 32
  per-entry losses — and the result buffer at what the host operations after the region make of it: its mean. Read as
  a vector of 32 the [32, 1, 1] array is the specification's vector of per-entry losses (same row-major positions), so
  the result is the specification's loss. The argument arrays end as they were launched.
-/
import proofs.«175096_j48258252538614_2_alg».proof.Proof.KernelArray
import proofs.«175096_j48258252538614_2_alg».proof.Proof.KernelHostSides

noncomputable section

namespace Cert.KernelLoss

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

/-- The [32, 1, 1] array of per-entry losses read as a vector of 32 is the vector of per-entry losses: entry j of the
    vector and entry (j, 0, 0) of the array sit at the same row-major position. -/
theorem lossArr_asVector (x : GramLoss.Student) (t : GramLoss.Teacher) :
    shapeCast S32 (lossArr x t) shapeCasts_S32x1x1_S32 = GramLoss.perSampleVec x t := by
  funext j
  refine (shapeCast_apply (lossArr x t) shapeCasts_S32x1x1_S32 j (ix3 (⟨(j 0).val, (j 0).isLt⟩ : Fin 32) 0 0) ?_).trans rfl
  rw [Shape.rowMajor_val_three, Shape.rowMajor_val_one]
  show ((j 0).val * 1 + 0) * 1 + 0 = (j 0).val
  omega

/-- The program's result buffer after the host operations that follow the region: the loss of the argument arrays. -/
theorem result_eq (c : Dev nD) :
    Pipeline.afterTail₀ cfgs (dats m) 0 (V0 m) [hostOps1] c main_v5
      = GramLoss.loss (m ((c : Thread nD τ).loc main_arg0)) (m ((c : Thread nD τ).loc main_arg1)) := by
  rw [KernelHostSides.result_eq_batchMean, final3 m (KernelHostSides.teacher_row m) (KernelHostSides.ones_row m) c,
    lossArr_asVector]
  rfl

/-- Every weakly fair execution of the kernel program terminates, nothing faulting, with the result buffer at the loss
    of the argument arrays and the argument arrays unchanged. -/
theorem run : θ_run defs (onTc (τ := τ) (main (F := Ideal))) ⟨m, fun _ => 0, ρ⟩ (fun r => ∀ c : Dev nD,
      r.2.mem ((c.tc : Thread nD τ).loc main_v5)
        = GramLoss.loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).2 main_v5 (Pipeline.mem_restRefs_of main_v5 (by decide) (by decide))).trans (result_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelLoss

end
-- ==== Proof.lean ====
/-
  The certificate of the polynomial-kernel feature-matching loss kernel against its jnp reference.

  Both programs compute, over the extended reals, the loss of Proof/GramLoss.lean: for each of the 32 batch entries the
  sum over the 128 * 128 channel pairs of k(student-student Gram) + k(teacher-teacher Gram) - 2 * k(student-teacher
  Gram), k(g) = (g + 0) * (g + 0), divided by 16384, and then the mean of the 32.

  The kernel takes two batch entries per grid step: it packs their channels side by side, reads the two Gram matrices
  off the diagonal blocks of one 256-wide product, gets the channel sums as the product of a row of ones with the packed
  operand (1 * a = a), sums the 128 by 128 square row by row and then down the column, and the host takes the mean. The
  reference contracts each entry's features directly, sums the channels directly, and sums the square over both axes at
  once. The two arrangements of each sum agree because addition on the extended reals is commutative and associative;
  no step needs the inputs to be finite, so the precondition is never opened.

  The three frames are the generated frame proofs (the reference's is its generated run with the result dropped); the
  idealized kernel program is the kernel program's own operations read over the extended reals, none rewritten, so the
  idealization claim has no conjunct and is trivial; the value claim joins the kernel's run
  (Proof/KernelRun.lean) and the reference's (Proof/ReferenceLoss.lean over the generated run) at the one specification.
-/
import proofs.«175096_j48258252538614_2_alg».proof.Defs
import proofs.«175096_j48258252538614_2_alg».proof.Proof.Gen.Kernel
import proofs.«175096_j48258252538614_2_alg».proof.Proof.Gen.Kernel.Skeleton
import proofs.«175096_j48258252538614_2_alg».proof.Proof.Gen.Kernel.Launch
import proofs.«175096_j48258252538614_2_alg».proof.Proof.Gen.Kernel.Points
import proofs.«175096_j48258252538614_2_alg».proof.Proof.Gen.Kernel.Frame
import proofs.«175096_j48258252538614_2_alg».proof.Proof.Gen.KernelIdeal
import proofs.«175096_j48258252538614_2_alg».proof.Proof.Gen.KernelIdeal.Skeleton
import proofs.«175096_j48258252538614_2_alg».proof.Proof.Gen.KernelIdeal.Launch
import proofs.«175096_j48258252538614_2_alg».proof.Proof.Gen.KernelIdeal.Points
import proofs.«175096_j48258252538614_2_alg».proof.Proof.Gen.KernelIdeal.Frame
import proofs.«175096_j48258252538614_2_alg».proof.Proof.Gen.ReferenceIdeal
import proofs.«175096_j48258252538614_2_alg».proof.Proof.Gen.Pre_finite_inputs
import proofs.«175096_j48258252538614_2_alg».proof.Proof.Gen.ReferenceIdeal.Run
import proofs.«175096_j48258252538614_2_alg».proof.Proof.Gen.ReferenceIdeal.Read
import proofs.«175096_j48258252538614_2_alg».proof.Proof.ReferenceLoss
import proofs.«175096_j48258252538614_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and leaves its arguments unchanged: the generated frame. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference runs and leaves its arguments unchanged: its generated run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel program was rewritten for its reading over the extended reals: nothing to show. -/
theorem preserves : Cert.preserves_Kernel_KernelIdeal := trivial

/-- From memories agreeing on the two arguments, both programs end with the loss of those arguments as their result. -/
theorem algebraic : Cert.algebraic_KernelIdeal_ReferenceIdeal := by
  intro m ρ m' ρ' _ hagree
  refine ⟨fun c => Cert.GramLoss.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelLoss.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceLoss.val_eq_loss, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
